-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1x1024 : Shape := ⟨3, ![4096, 1, 1024]⟩
abbrev S1x32000x1024 : Shape := ⟨3, ![1, 32000, 1024]⟩
abbrev S1x32000 : Shape := ⟨2, ![1, 32000]⟩
abbrev S_ : Shape := ⟨0, ![]⟩

class Facts : Prop where
  bcast_S_S4096x1x1024 : S_.BroadcastsInDim S4096x1x1024 (![] : Fin 0 → Fin S4096x1x1024.rank)
  reducesTo_S4096x1x1024_S_d0_1_2 : S4096x1x1024.ReducesTo [0, 1, 2] S_
  h_S_ : 0 < S_.numel
  bcast_S_S1x32000x1024 : S_.BroadcastsInDim S1x32000x1024 (![] : Fin 0 → Fin S1x32000x1024.rank)
  reducesTo_S1x32000x1024_S_d0_1_2 : S1x32000x1024.ReducesTo [0, 1, 2] S_
  bcast_S_S1x32000 : S_.BroadcastsInDim S1x32000 (![] : Fin 0 → Fin S1x32000.rank)
  reducesTo_S1x32000_S_d0_1 : S1x32000.ReducesTo [0, 1] S_

variable [Facts]

def fn {F : FTy → Type} [FloatOps F] (main_arg0 : FVec F S4096x1x1024 .f32) (main_arg1 : FVec F S1x32000x1024 .f32) (main_arg2 : FVec F S1x32000 .f32) : IVec S_ 1 :=
  let main_v0 : FVec F S4096x1x1024 .f32 := Host.absf main_arg0
  let main_cst : FVec F S_ .f32 := constant S_ .f32 0x7F800000#32
  let main_v1 : FVec F S4096x1x1024 .f32 := broadcastInDim S4096x1x1024 ![] bcast_S_S4096x1x1024 main_cst
  let main_v2 : IVec S4096x1x1024 1 := cmpf .olt main_v0 main_v1
  let main_c : IVec S_ 1 := constantI S_ 1 1#1
  let main_v3 : IVec S_ 1 := (fun x v => Host.reduce IntOp.andi x v reducesTo_S4096x1x1024_S_d0_1_2 h_S_) main_v2 main_c
  let main_v4 : FVec F S1x32000x1024 .f32 := Host.absf main_arg1
  let main_cst_0 : FVec F S_ .f32 := constant S_ .f32 0x7F800000#32
  let main_v5 : FVec F S1x32000x1024 .f32 := broadcastInDim S1x32000x1024 ![] bcast_S_S1x32000x1024 main_cst_0
  let main_v6 : IVec S1x32000x1024 1 := cmpf .olt main_v4 main_v5
  let main_c_1 : IVec S_ 1 := constantI S_ 1 1#1
  let main_v7 : IVec S_ 1 := (fun x v => Host.reduce IntOp.andi x v reducesTo_S1x32000x1024_S_d0_1_2 h_S_) main_v6 main_c_1
  let main_v8 : IVec S_ 1 := andi main_v3 main_v7
  let main_v9 : FVec F S1x32000 .f32 := Host.absf main_arg2
  let main_cst_2 : FVec F S_ .f32 := constant S_ .f32 0x7F800000#32
  let main_v10 : FVec F S1x32000 .f32 := broadcastInDim S1x32000 ![] bcast_S_S1x32000 main_cst_2
  let main_v11 : IVec S1x32000 1 := cmpf .olt main_v9 main_v10
  let main_c_3 : IVec S_ 1 := constantI S_ 1 1#1
  let main_v12 : IVec S_ 1 := (fun x v => Host.reduce IntOp.andi x v reducesTo_S1x32000_S_d0_1 h_S_) main_v11 main_c_3
  let main_v13 : IVec S_ 1 := andi main_v8 main_v12
  main_v13
-- ==== Kernel.lean ====
abbrev S4096x1x1024 : Shape := ⟨3, ![4096, 1, 1024]⟩
abbrev S1x32000x1024 : Shape := ⟨3, ![1, 32000, 1024]⟩
abbrev S1x32000 : Shape := ⟨2, ![1, 32000]⟩
abbrev S4096x1024 : Shape := ⟨2, ![4096, 1024]⟩
abbrev S32000x1024 : Shape := ⟨2, ![32000, 1024]⟩
abbrev S4096x32000 : Shape := ⟨2, ![4096, 32000]⟩
abbrev S1280x1024 : Shape := ⟨2, ![1280, 1024]⟩
abbrev S1x1280 : Shape := ⟨2, ![1, 1280]⟩
abbrev S1024x1280 : Shape := ⟨2, ![1024, 1280]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4096x1x1024, .f32⟩
  | .hbm, ⟨1, _⟩ => ⟨S1x32000x1024, .f32⟩
  | .hbm, ⟨2, _⟩ => ⟨S1x32000, .f32⟩
  | .hbm, ⟨3, _⟩ => ⟨S4096x1024, .f32⟩
  | .hbm, ⟨4, _⟩ => ⟨S4096x1024, .bf16⟩
  | .hbm, ⟨5, _⟩ => ⟨S32000x1024, .f32⟩
  | .hbm, ⟨6, _⟩ => ⟨S4096x32000, .f32⟩
  | .local _ .vmem, ⟨0, _⟩ => ⟨S4096x1024, .bf16⟩
  | .local _ .vmem, ⟨1, _⟩ => ⟨S1280x1024, .f32⟩
  | .local _ .vmem, ⟨2, _⟩ => ⟨S1280x1024, .f32⟩
  | .local _ .vmem, ⟨3, _⟩ => ⟨S1x1280, .f32⟩
  | .local _ .vmem, ⟨4, _⟩ => ⟨S1x1280, .f32⟩
  | .local _ .vmem, ⟨5, _⟩ => ⟨S1024x1280, .f32⟩
  | .local _ .vmem, ⟨6, _⟩ => ⟨S1024x1280, .f32⟩
  | _, _ => ⟨S4096x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![25, 4], ![false, false]⟩

def k0_mult1 (i : grid0.Coords) : BitVec 32 :=
  let arg1 : BitVec 32 := BitVec.ofNat 32 (i 1).val
  let c1024_i32 : BitVec 32 := 1024#32
  let v0 : BitVec 32 := Scalar.muli arg1 c1024_i32
  v0
def k0_off1 (i : grid0.Coords) : Fin 2 → Nat :=
  let arg1 : BitVec 32 := BitVec.ofNat 32 (i 1).val
  let c1024_i32 : BitVec 32 := 1024#32
  let v0 : BitVec 32 := Scalar.muli arg1 c1024_i32
  let v1 : BitVec 32 := v0
  let v2 : Index := Scalar.indexCast v1
  let c0 : Index := 0#32
  ![v2.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1280x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S4096x1x1024_S4096x1024 : S4096x1x1024.ShapeCasts S4096x1024
  bitsLt_bf16_f32 : FTy.bits .bf16 < FTy.bits .f32
  shapeCasts_S1x32000x1024_S32000x1024 : S1x32000x1024.ShapeCasts S32000x1024
  h_S1024x1024 : 0 < S1024x1024.numel
  shapeCasts_S1024x1024_S1024x1024 : S1024x1024.ShapeCasts S1024x1024
  inb_S1280x1024_S1280x1024_0_0 : ∀ a, (![0, 0] : Fin 2 → Nat) a + S1280x1024.size a ≤ S1280x1024.size a
  h_S1280x1024 : 0 < S1280x1024.numel
  shapeCasts_S1280x1024_S1280x1024 : S1280x1024.ShapeCasts S1280x1024
  inb_S1x1280_S1x1280_0_0 : ∀ a, (![0, 0] : Fin 2 → Nat) a + S1x1280.size a ≤ S1x1280.size a
  h_S1x1280 : 0 < S1x1280.numel
  broadcasts_S1x1280_S1024x1280 : S1x1280.Broadcasts S1024x1280
  inb_S1024x1280_S1024x1280_0_0 : ∀ a, (![0, 0] : Fin 2 → Nat) a + S1024x1280.size a ≤ S1024x1280.size a
  h_S1024x1280 : 0 < S1024x1280.numel
  dot_S1024x1024_S1280x1024_S1024x1280_1_1_0_0_n_n_wf : DotDims.WF S1024x1024 S1280x1024 S1024x1280 [1] [1] [0] [0] [] []
  hrank0 : 0 < grid0.rank
  k0_mult1_dvd : ∀ i : grid0.Coords, 16 ∣ (k0_mult1 i).toNat
  k0_off1_inb : ∀ i : grid0.Coords, ∀ a, (k0_off1 i) a + S1024x1024.size a ≤ S4096x1024.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x1024.size a ≤ S4096x1024.size a
  hwx0_0 : ∀ i : grid0.Coords, EltTy.bits .bf16 = 32 ∨ (Rect.block (s := S4096x1024) S4096x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1280x1024.size a ≤ S32000x1024.size a
  hwx0_1 : ∀ i : grid0.Coords, EltTy.bits .f32 = 32 ∨ (Rect.block (s := S32000x1024) S1280x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1280.size a ≤ S1x32000.size a
  hwx0_2 : ∀ i : grid0.Coords, EltTy.bits .f32 = 32 ∨ (Rect.block (s := S1x32000) S1x1280.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1280.size a ≤ S4096x32000.size a
  hwx0_3 : ∀ i : grid0.Coords, EltTy.bits .f32 = 32 ∨ (Rect.block (s := S4096x32000) S1024x1280.size (cc0_transform_3 i) (hinb0_3 i)).WholeWords (EltTy.packing .f32)

variable [Facts₀]

def dot_S1024x1024_S1280x1024_S1024x1280_1_1_0_0_n_n : DotDims S1024x1024 S1280x1024 S1024x1280 where
  lhsContracting := [1]
  rhsContracting := [1]
  lhsNonContracting := [0]
  rhsNonContracting := [0]
  lhsBatch := []
  rhsBatch := []
  wf := dot_S1024x1024_S1280x1024_S1024x1280_1_1_0_0_n_n_wf

abbrev win0_0 : Pipeline.Window sig grid0 :=
  Pipeline.Window.ofSpec (Memref.whole main_v1) S4096x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1280x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1280.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1280.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x1x1024 : Shape := ⟨3, ![4096, 1, 1024]⟩
abbrev S1x32000x1024 : Shape := ⟨3, ![1, 32000, 1024]⟩
abbrev S1x32000 : Shape := ⟨2, ![1, 32000]⟩
abbrev S4096x1024 : Shape := ⟨2, ![4096, 1024]⟩
abbrev S32000x1024 : Shape := ⟨2, ![32000, 1024]⟩
abbrev S4096x32000 : Shape := ⟨2, ![4096, 32000]⟩

abbrev nBuf : Space → Nat
  | .hbm => 8
  | .vmem => 0
  | .smem => 0
  | _ => 0

abbrev bufTy : (tb : Table) → Fin (tcTables nBuf tb) → BufTy
  | .hbm, ⟨0, _⟩ => ⟨S4096x1x1024, .f32⟩
  | .hbm, ⟨1, _⟩ => ⟨S1x32000x1024, .f32⟩
  | .hbm, ⟨2, _⟩ => ⟨S1x32000, .f32⟩
  | .hbm, ⟨3, _⟩ => ⟨S4096x1024, .f32⟩
  | .hbm, ⟨4, _⟩ => ⟨S32000x1024, .f32⟩
  | .hbm, ⟨5, _⟩ => ⟨S4096x32000, .f32⟩
  | .hbm, ⟨6, _⟩ => ⟨S4096x32000, .f32⟩
  | .hbm, ⟨7, _⟩ => ⟨S4096x32000, .f32⟩
  | _, _ => ⟨S4096x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  shapeCasts_S4096x1x1024_S4096x1024 : S4096x1x1024.ShapeCasts S4096x1024
  shapeCasts_S1x32000x1024_S32000x1024 : S1x32000x1024.ShapeCasts S32000x1024
  bcast_S1x32000_S4096x32000_0_1 : S1x32000.BroadcastsInDim S4096x32000 (![0, 1] : Fin 2 → Fin S4096x32000.rank)
  dot_S4096x1024_S32000x1024_S4096x32000_1_1_0_0_n_n_wf : DotDims.WF S4096x1024 S32000x1024 S4096x32000 [1] [1] [0] [0] [] []

variable [Facts₀]

def dot_S4096x1024_S32000x1024_S4096x32000_1_1_0_0_n_n : DotDims S4096x1024 S32000x1024 S4096x32000 where
  lhsContracting := [1]
  rhsContracting := [1]
  lhsNonContracting := [0]
  rhsNonContracting := [0]
  lhsBatch := []
  rhsBatch := []
  wf := dot_S4096x1024_S32000x1024_S4096x32000_1_1_0_0_n_n_wf

class Facts : Prop extends Facts₀ where

variable [Facts]
-- ==== Proof.Stored.lean ====
/-
  What the body leaves in the output's staging buffer at a grid point, whatever the float instance: its one
  store covers the whole 1024 × 1280 tile, so the buffer ends holding the stored value — the body's arithmetic
  applied to 1024 consecutive rows of the resident copy of `x` (the rows starting at 1024 times the point's
  batch coordinate), the whole tile of class rows and the whole tile of biases.
-/
import proofs.«154329_j61117384622669_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Stored

open Cert.KernelIdeal Cert.KernelIdeal.Gen

variable {F : FTy → Type} [FloatOps F]

theorem zero_offsets : (![0, 0] : Fin 2 → Nat) = fun _ => 0 := funext fun a => by fin_cases a <;> rfl

/-- The tile after the body: the stored value of the rows of `x0` the point selects, of `x1` and of `x2`. -/
theorem tile_eq (c : Dev nD) (i : grid0.Coords) (arg2 : Memref sig .tc .vmem S4096x1024 .bf16) (harg2 : arg2.IsWhole)
    (arg3 : Memref sig .tc .vmem S1280x1024 .f32) (harg3 : arg3.IsWhole) (arg4 : Memref sig .tc .vmem S1x1280 .f32) (harg4 : arg4.IsWhole)
    (arg5 : Memref sig .tc .vmem S1024x1280 .f32) (harg5 : arg5.IsWhole)
    (x0 : Vec F S4096x1024 .bf16) (x1 : Vec F S1280x1024 .f32) (x2 : Vec F S1x1280 .f32) :
    out0_A_3 c i arg2 harg2 arg3 harg3 arg4 harg4 arg5 harg5 x0 x1 x2
      = k0_pay1 (View.ld x0 (Rect.unit (s := S4096x1024) (k0_off1 i) S1024x1024.size (k0_off1_inb i))) x1 x2 := by
  unfold out0_A_3
  rw [View.read_writes_eq_canon _ _ _ (cover0_A_3 c i arg2 harg2 arg3 harg3 arg4 harg4 arg5 harg5 x0 x1 x2)]
  unfold kernelRun0_A
  dsimp only
  sl_unfold_words
  rw [View.canon_unit_zero zero_offsets]
  simp only [View.readAt_eq_ld, harg2.read_unread, harg3.read_unread, harg4.read_unread,
    View.ld_unit_zero (S := S1280x1024) zero_offsets, View.ld_unit_zero (S := S1x1280) zero_offsets]

end Cert.KernelIdeal.Stored

end
-- ==== Proof.Logits.lean ====
/-
  The function both programs compute, stated once over plain arrays of extended reals and over no program:
  for a batch of 4096 rows `x` of width 1024, a table `w` of 32000 class rows of the same width and one bias
  per class, entry (r, c) of the result is the inner product of row r of `x` with row c of `w`, plus the
  bias of class c — the affine map `x · wᵀ + b`, the bias repeated down the rows.
-/
import Idealize.ShloMosaic.PureOps.Ideal
import Idealize.ShloMosaic.Lib.ValueIdx

noncomputable section

open Idealize.ShloMosaic Idealize.ShloMosaic.ValueIdx

namespace Cert.Logits

/-- Entry (r, c): `∑ₖ x[r, k] · w[c, k] + b[0, c]`, the sum over the 1024 shared columns. -/
def entry (x : (⟨2, ![4096, 1024]⟩ : Shape).Idx → EReal) (w : (⟨2, ![32000, 1024]⟩ : Shape).Idx → EReal)
    (b : (⟨2, ![1, 32000]⟩ : Shape).Idx → EReal) (r : Fin 4096) (c : Fin 32000) : EReal :=
  (∑ k : Fin 1024, x (ix2 r k) * w (ix2 c k)) + b (ix2 (0 : Fin 1) c)

/-- The whole 4096 × 32000 result, index by index. -/
def affine (x : (⟨2, ![4096, 1024]⟩ : Shape).Idx → EReal) (w : (⟨2, ![32000, 1024]⟩ : Shape).Idx → EReal)
    (b : (⟨2, ![1, 32000]⟩ : Shape).Idx → EReal) : (⟨2, ![4096, 32000]⟩ : Shape).Idx → EReal :=
  fun i => entry x w b (i 0) (i 1)

theorem affine_ix2 (x : (⟨2, ![4096, 1024]⟩ : Shape).Idx → EReal) (w : (⟨2, ![32000, 1024]⟩ : Shape).Idx → EReal)
    (b : (⟨2, ![1, 32000]⟩ : Shape).Idx → EReal) (r : Fin 4096) (c : Fin 32000) :
    affine x w b (ix2 r c) = entry x w b r c := rfl

end Cert.Logits

end
-- ==== Proof.TileAt.lean ====
/-
  What one grid point computes, read at an entry. The body multiplies a tile of 1024 rows of `x` by the
  transpose of a tile of 1280 class rows of `w` — contracting the 1024 shared columns into a zero accumulator —
  and adds the tile's 1280 biases to every row. Over the extended reals the change of float format on the
  way into the product is the identity and the zero accumulator adds nothing, so entry (p, q) of the tile is
  `∑ₖ a[p, k] · w[q, k] + b[0, q]`.
-/
import proofs.«154329_j61117384622669_2_alg».proof.Proof.Gen.KernelIdeal.Skeleton
import proofs.«154329_j61117384622669_2_alg».proof.Proof.Logits
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.KernelIdeal.Tile

open Cert.KernelIdeal Cert.KernelIdeal.Gen

/-- The product's left index at output (p, q) and contraction coordinate k is (p, k): -/
theorem lhs_row (i : S1024x1280.Idx) (k : dot_S1024x1024_S1280x1024_S1024x1280_1_1_0_0_n_n.contr.Idx) :
    (dot_S1024x1024_S1280x1024_S1024x1280_1_1_0_0_n_n.lhsIdx i k 0).val = (i 0).val := by
  unfold DotDims.lhsIdx
  rw [dif_neg (show ¬(0 : Fin S1024x1024.rank) ∈ dot_S1024x1024_S1280x1024_S1024x1280_1_1_0_0_n_n.lhsBatch by decide),
    dif_pos (show (0 : Fin S1024x1024.rank) ∈ dot_S1024x1024_S1280x1024_S1024x1280_1_1_0_0_n_n.lhsNonContracting by decide)]
  rfl

/-- and the right index is (q, k): the product is against the transpose. -/
theorem rhs_row (i : S1024x1280.Idx) (k : dot_S1024x1024_S1280x1024_S1024x1280_1_1_0_0_n_n.contr.Idx) :
    (dot_S1024x1024_S1280x1024_S1024x1280_1_1_0_0_n_n.rhsIdx i k 0).val = (i 1).val := by
  unfold DotDims.rhsIdx
  rw [dif_neg (show ¬(0 : Fin S1280x1024.rank) ∈ dot_S1024x1024_S1280x1024_S1024x1280_1_1_0_0_n_n.rhsBatch by decide),
    dif_pos (show (0 : Fin S1280x1024.rank) ∈ dot_S1024x1024_S1280x1024_S1024x1280_1_1_0_0_n_n.rhsNonContracting by decide)]
  rfl

/-- The tile's matrix product into the zero accumulator, at entry (p, q): the sum over the 1024 shared columns. -/
theorem product_at (a : FVec Ideal S1024x1024 .bf16) (w : FVec Ideal S1280x1024 .bf16) (p : Fin 1024) (q : Fin 1280) :
    matmul dot_S1024x1024_S1280x1024_S1024x1280_1_1_0_0_n_n none a w (constant (F := Ideal) S1024x1280 .f32 0x00000000#32) (ix2 p q)
      = ∑ k : Fin 1024, a (ix2 p k) * w (ix2 q k) := by
  refine (Ideal.matmul_constant_zero_apply dot_S1024x1024_S1280x1024_S1024x1280_1_1_0_0_n_n none a w (ix2 p q)).trans ?_
  rw [← Equiv.sum_comp (contrEquiv1 dot_S1024x1024_S1280x1024_S1024x1280_1_1_0_0_n_n 1024 rfl rfl).symm]
  refine Finset.sum_congr rfl fun k _ => ?_
  have hk := contrEquiv1_symm_val dot_S1024x1024_S1280x1024_S1024x1280_1_1_0_0_n_n 1024 rfl rfl k
  have el : dot_S1024x1024_S1280x1024_S1024x1280_1_1_0_0_n_n.lhsIdx (ix2 p q)
      ((contrEquiv1 dot_S1024x1024_S1280x1024_S1024x1280_1_1_0_0_n_n 1024 rfl rfl).symm k) = ix2 p k :=
    funext fun d => Fin.ext (by
      match d with
      | ⟨0, _⟩ => exact lhs_row _ _
      | ⟨1, _⟩ => exact (dot_S1024x1024_S1280x1024_S1024x1280_1_1_0_0_n_n.lhsIdx_val_of_single rfl _ _).trans hk)
  have er : dot_S1024x1024_S1280x1024_S1024x1280_1_1_0_0_n_n.rhsIdx (ix2 p q)
      ((contrEquiv1 dot_S1024x1024_S1280x1024_S1024x1280_1_1_0_0_n_n 1024 rfl rfl).symm k) = ix2 q k :=
    funext fun d => Fin.ext (by
      match d with
      | ⟨0, _⟩ => exact rhs_row _ _
      | ⟨1, _⟩ => exact (dot_S1024x1024_S1280x1024_S1024x1280_1_1_0_0_n_n.rhsIdx_val_of_single rfl _ _).trans hk)
  rw [el, er]

/-- The bias row repeated down the tile's 1024 rows reads, at (p, q), the bias of column q. -/
theorem bias_at (b : FVec Ideal S1x1280 .f32) (p : Fin 1024) (q : Fin 1280) :
    broadcastTo S1024x1280 b broadcasts_S1x1280_S1024x1280 (ix2 p q) = b (ix2 (0 : Fin 1) q) :=
  broadcastTo_1b_ab_apply b broadcasts_S1x1280_S1024x1280 p q

/-- The value the body stores, at entry (p, q) of the tile. -/
theorem stored_at (a : Vec Ideal S1024x1024 .bf16) (w : Vec Ideal S1280x1024 .f32) (b : Vec Ideal S1x1280 .f32)
    (p : Fin 1024) (q : Fin 1280) :
    k0_pay1 (F := Ideal) a w b (ix2 p q) = (∑ k : Fin 1024, a (ix2 p k) * w (ix2 q k)) + b (ix2 (0 : Fin 1) q) := by
  unfold k0_pay1
  refine (addf_apply _ _ _).trans ?_
  refine congrArg₂ (· + ·) ?_ (bias_at b p q)
  refine (product_at _ _ p q).trans ?_
  refine Finset.sum_congr rfl fun k _ => ?_
  rw [shapeCast_self, truncf_apply, shapeCast_self]

/-- A tile whose rows of `a` are rows `r0 …` of `X`, whose class rows are rows `c0 …` of `W` and whose biases are
    entries `c0 …` of `B` stores, at (p, q), entry (r0 + p, c0 + q) of the affine map of `X`, `W` and `B`. -/
theorem entry_of_tile (X : (⟨2, ![4096, 1024]⟩ : Shape).Idx → EReal) (W : (⟨2, ![32000, 1024]⟩ : Shape).Idx → EReal)
    (B : (⟨2, ![1, 32000]⟩ : Shape).Idx → EReal)
    (a : Vec Ideal S1024x1024 .bf16) (w : Vec Ideal S1280x1024 .f32) (b : Vec Ideal S1x1280 .f32)
    (r0 c0 : Nat) (hr : r0 + 1024 ≤ 4096) (hc : c0 + 1280 ≤ 32000)
    (ha : ∀ (p : Fin 1024) (k : Fin 1024), a (ix2 p k) = X (ix2 (⟨r0 + p.val, by have := p.isLt; omega⟩ : Fin 4096) k))
    (hw : ∀ (q : Fin 1280) (k : Fin 1024), w (ix2 q k) = W (ix2 (⟨c0 + q.val, by have := q.isLt; omega⟩ : Fin 32000) k))
    (hb : ∀ q : Fin 1280, b (ix2 (0 : Fin 1) q) = B (ix2 (0 : Fin 1) (⟨c0 + q.val, by have := q.isLt; omega⟩ : Fin 32000)))
    (p : Fin 1024) (q : Fin 1280) :
    k0_pay1 (F := Ideal) a w b (ix2 p q)
      = Cert.Logits.entry X W B ⟨r0 + p.val, by have := p.isLt; omega⟩ ⟨c0 + q.val, by have := q.isLt; omega⟩ := by
  refine (stored_at a w b p q).trans ?_
  unfold Cert.Logits.entry
  rw [hb q]
  exact congrArg (· + _) (Finset.sum_congr rfl fun k _ => by rw [ha p k, hw q k])

end Cert.KernelIdeal.Tile

end
-- ==== Proof.Entry.lean ====
/-
  What the region finds in the two arrays the host prepares for it: `x` with its unit axis dropped and rounded
  to bf16 — over the extended reals the rounding is the identity, so just `x` with the axis dropped —, and the
  class table with its leading unit axis dropped.
-/
import proofs.«154329_j61117384622669_2_alg».proof.Proof.Gen.KernelIdeal.Frame
import Idealize.ShloMosaic.Lib.Pipeline.Value
import Idealize.ShloMosaic.Lib.StableHlo.Run
import Idealize.ShloMosaic.Lib.ValueIdx

noncomputable section

open Idealize.ShloMosaic Idealize.ShloMosaic.TcCoe Idealize.SL.Sem Idealize.ShloMosaic.ValueIdx

namespace Cert.KernelIdeal.Entry

open Cert.KernelIdeal Cert.KernelIdeal.Gen

variable {F : FTy → Type} [FloatOps F]

/-- The resident operand: `x` flattened to 4096 × 1024, then rounded. -/
theorem x_rounded (m : (ℓ : Loc nD τ sig) → Buf (Elt F) ℓ) (c : Dev nD) :
    (V m c main_v1 : S4096x1024.Idx → Elt F .bf16)
      = truncf .bf16 (shapeCast S4096x1024 (m ((c : Thread nD τ).loc main_arg0)) shapeCasts_S4096x1x1024_S4096x1024) bitsLt_bf16_f32 := by
  dsimp only [Gen.V, Gen.hostOps0]; after_results; rfl

/-- The class table flattened to 32000 × 1024. -/
theorem w_flat (m : (ℓ : Loc nD τ sig) → Buf (Elt F) ℓ) (c : Dev nD) :
    (V m c main_v2 : S32000x1024.Idx → Elt F .f32)
      = shapeCast S32000x1024 (m ((c : Thread nD τ).loc main_arg1)) shapeCasts_S1x32000x1024_S32000x1024 := by
  dsimp only [Gen.V, Gen.hostOps0]; after_results; rfl

/-- Over the extended reals the rounding changes nothing. -/
theorem x_flat (m : (ℓ : Loc nD τ sig) → Buf (Elt Ideal) ℓ) (c : Dev nD) :
    (V m c main_v1 : S4096x1024.Idx → EReal)
      = shapeCast S4096x1024 (m ((c : Thread nD τ).loc main_arg0)) shapeCasts_S4096x1x1024_S4096x1024 :=
  (x_rounded m c).trans (funext fun i => truncf_apply _ _ i)

end Cert.KernelIdeal.Entry

end
-- ==== Proof.Tiles.lean ====
/-
  From tiles to the whole result. The grid has 25 × 4 points; point (j, i) writes back tile (i, j) of the
  4096 × 32000 result: rows 1024·i …, columns 1280·j …. At that point the body reads rows 1024·i … of the
  resident `x`, class rows 1280·j … of the table and biases 1280·j …, so what it writes back is that tile of
  the affine map of the arrays the region found; the 100 tiles cover the result, which therefore ends holding
  the affine map, index by index.
-/
import proofs.«154329_j61117384622669_2_alg».proof.Proof.Gen.KernelIdeal.Value
import proofs.«154329_j61117384622669_2_alg».proof.Proof.Stored
import proofs.«154329_j61117384622669_2_alg».proof.Proof.TileAt
import proofs.«154329_j61117384622669_2_alg».proof.Proof.Entry
import proofs.«154329_j61117384622669_2_alg».proof.Proof.Logits
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen

variable (m : (ℓ : Loc nD τ sig) → Buf (Elt Ideal) ℓ) (ρ : Dev nD → PrngReg)

/-- The index maps and the body's row offset, decided over the 100 points: the resident `x` never moves; the
    class rows and the biases move with the output's column tile; the body's first row is 1024 times the
    output's row tile. -/
theorem point_facts : ∀ t : Fin cfg0.N,
    win0_0.index t (0 : Fin 2) = 0 ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = win0_3.index t (1 : Fin 2)
    ∧ k0_off1 (grid0.coords t) (0 : Fin 2) = win0_3.index t (0 : Fin 2) * 1024 ∧ k0_off1 (grid0.coords t) (1 : Fin 2) = 0
    ∧ win0_3.index t (0 : Fin 2) ≤ 3 ∧ win0_3.index t (1 : Fin 2) ≤ 24 :=
  (by decide +kernel : ∀ t : Fin grid0.N, _)

/-- Every tile of the 4 × 25 tiling is some point's. -/
theorem tile_onto : ∀ (q0 : Fin 4) (q1 : Fin 25), ∃ t : Fin cfg0.N, win0_3.index t = ![q0.val, q1.val] :=
  (by decide +kernel : ∀ (q0 : Fin 4) (q1 : Fin 25), ∃ t : Fin grid0.N, win0_3.index t = ![q0.val, q1.val])

/-- The result as a function of the arrays the region finds. -/
abbrev result (c : Dev nD) : S4096x32000.Idx → EReal :=
  Cert.Logits.affine (V m c main_v1 : S4096x1024.Idx → EReal) (V m c main_v2 : S32000x1024.Idx → EReal)
    (V m c main_arg2 : S1x32000.Idx → EReal)

/-- WHAT POINT `t` WRITES BACK is tile `t` of the affine map. -/
theorem flushed_eq (c : Dev nD) (t : Fin cfg0.N) :
    (dats m 0 c).flushed 3 t = ((cfg0.win 3).blk t).view.read (Elt Ideal) (result m c) := by
  refine (Value.flushed3_A m c t).trans ?_
  rw [Stored.tile_eq]
  obtain ⟨e00, e01, e10, e11, e20, e21, eo0, eo1, b0, b1⟩ := point_facts t
  funext j
  obtain ⟨p, q, rfl⟩ : ∃ (p : Fin 1024) (q : Fin 1280), j = ix2 p q := ⟨j 0, j 1, eq_ix2 j⟩
  show k0_pay1 (F := Ideal) (View.ld (iblk m c 0 t) (Rect.unit (s := S4096x1024) (k0_off1 (grid0.coords t)) S1024x1024.size (k0_off1_inb (grid0.coords t))))
      (iblk m c 1 t) (iblk m c 2 t) (ix2 p q) = result m c (((cfg0.win 3).blk t).view.emb (ix2 p q))
  refine (Tile.entry_of_tile (V m c main_v1) (V m c main_v2) (V m c main_arg2) _ _ _
    (win0_3.index t (0 : Fin 2) * 1024) (win0_3.index t (1 : Fin 2) * 1280) (by omega) (by omega) ?_ ?_ ?_ p q).trans ?_
  · intro p k
    show V m c main_v1 (((cfg0.win 0).blk t).view.emb ((Rect.unit (s := S4096x1024) (k0_off1 (grid0.coords t)) S1024x1024.size (k0_off1_inb (grid0.coords t))).idx (ix2 p k))) = V m c main_v1 _
    refine congrArg (V m c main_v1) (funext fun a => Fin.ext ?_)
    match a with
    | ⟨0, _⟩ => show win0_0.index t (0 : Fin 2) * 4096 + 1 * (k0_off1 (grid0.coords t) (0 : Fin 2) + 1 * p.val) = win0_3.index t (0 : Fin 2) * 1024 + p.val; omega
    | ⟨1, _⟩ => show win0_0.index t (1 : Fin 2) * 1024 + 1 * (k0_off1 (grid0.coords t) (1 : Fin 2) + 1 * k.val) = k.val; omega
  · intro q k
    show V m c main_v2 (((cfg0.win 1).blk t).view.emb (ix2 q k)) = V m c main_v2 _
    refine congrArg (V m c main_v2) (funext fun a => Fin.ext ?_)
    match a with
    | ⟨0, _⟩ => show win0_1.index t (0 : Fin 2) * 1280 + 1 * q.val = win0_3.index t (1 : Fin 2) * 1280 + q.val; omega
    | ⟨1, _⟩ => show win0_1.index t (1 : Fin 2) * 1024 + 1 * k.val = k.val; omega
  · intro q
    show V m c main_arg2 (((cfg0.win 2).blk t).view.emb (ix2 (0 : Fin 1) q)) = V m c main_arg2 _
    refine congrArg (V m c main_arg2) (funext fun a => Fin.ext ?_)
    match a with
    | ⟨0, _⟩ => show win0_2.index t (0 : Fin 2) * 1 + 1 * 0 = 0; omega
    | ⟨1, _⟩ => show win0_2.index t (1 : Fin 2) * 1280 + 1 * q.val = win0_3.index t (1 : Fin 2) * 1280 + q.val; omega
  · show Cert.Logits.entry _ _ _ _ _ = Cert.Logits.entry _ _ _ ((((cfg0.win 3).blk t).view.emb (ix2 p q)) 0) ((((cfg0.win 3).blk t).view.emb (ix2 p q)) 1)
    congr 1
    · refine Fin.ext ?_
      show win0_3.index t (0 : Fin 2) * 1024 + p.val = win0_3.index t (0 : Fin 2) * 1024 + 1 * p.val; omega
    · refine Fin.ext ?_
      show win0_3.index t (1 : Fin 2) * 1280 + q.val = win0_3.index t (1 : Fin 2) * 1280 + 1 * q.val; omega

/-- An index of the result is in point `t`'s tile iff each coordinate is in the tile's range on its axis. -/
theorem mem_tile (t : Fin cfg0.N) (i : S4096x32000.Idx) :
    i ∈ ((cfg0.win 3).blk t).view.set ↔ ∀ a : Fin 2, win0_3.index t a * S1024x1280.size a ≤ (i a).val ∧ (i a).val < win0_3.index t a * S1024x1280.size a + S1024x1280.size a := by
  show i ∈ ((View.whole main_v3).slice (win0_3.rect t)).set ↔ _
  rw [View.set_slice_whole, Rect.mem_set_unit]
  exact Iff.rfl

/-- The tiles cover the result: index (r, c) lies in tile (r / 1024, c / 1280). -/
theorem covered (i : S4096x32000.Idx) : ∃ t : Fin cfg0.N, (cfg0.win 3).flush t = true ∧ i ∈ ((cfg0.win 3).blk t).view.set := by
  have hi0 : (i 0).val < 4096 := (i 0).isLt
  have hi1 : (i 1).val < 32000 := (i 1).isLt
  obtain ⟨t, ht⟩ := tile_onto ⟨(i 0).val / 1024, by omega⟩ ⟨(i 1).val / 1280, by omega⟩
  have q0 : win0_3.index t (0 : Fin 2) = (i 0).val / 1024 := congrFun ht 0
  have q1 : win0_3.index t (1 : Fin 2) = (i 1).val / 1280 := congrFun ht 1
  refine ⟨t, flush0_3 t, ?_⟩
  rw [mem_tile]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1280 ≤ (i 1).val ∧ (i 1).val < win0_3.index t (1 : Fin 2) * 1280 + 1280; omega

/-- THE RESULT ARRAY after the run is the affine map of the arrays the region found. -/
theorem final (c : Dev nD) : (dats m 0 c).arrAt 3 cfg0.N = result m c :=
  (dats m 0 c).arrAt_eq_of_cover 3 (result m c) (fun t _ => flushed_eq m c t) (covered)

/-- The run, read: the result at the affine map of the flattened arguments, the arguments unchanged. -/
theorem run : θ_run defs (onTc (τ := τ) (main (F := Ideal))) ⟨m, fun _ => 0, ρ⟩ fun r => ∀ c : Dev nD,
      r.2.mem ((c : Thread nD τ).loc main_v3)
        = Cert.Logits.affine (shapeCast S4096x1024 (m ((c : Thread nD τ).loc main_arg0)) shapeCasts_S4096x1x1024_S4096x1024)
            (shapeCast S32000x1024 (m ((c : Thread nD τ).loc main_arg1)) shapeCasts_S1x32000x1024_S32000x1024)
            (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((final m c).trans (by
      show Cert.Logits.affine _ _ _ = _
      rw [Entry.x_flat m c, Entry.w_flat m c, V_main_arg2 m c])), (h c).2⟩)
    (Value.run_blocks m ρ)

end Cert.KernelIdeal.Whole

end
-- ==== Proof.RefLogits.lean ====
/-
  The reference, read stage by stage at an index: its `dot_general` contracts the second axis of the reshaped
  `x` with the second axis of the reshaped `w`, and the bias row is broadcast down the 4096 rows before the
  sum. So its result is the affine map of the two reshaped arrays and the bias.
-/
import proofs.«154329_j61117384622669_2_alg».proof.Proof.Gen.ReferenceIdeal.Read
import proofs.«154329_j61117384622669_2_alg».proof.Proof.Logits

noncomputable section

open Idealize.ShloMosaic Idealize.ShloMosaic.ValueIdx

namespace Cert.ReferenceIdeal.RefValue

open Cert.ReferenceIdeal Cert.ReferenceIdeal.Read

theorem result_eq (x0 : (⟨S4096x1x1024, .f32⟩ : BufTy).Contents (Elt Ideal)) (x1 : (⟨S1x32000x1024, .f32⟩ : BufTy).Contents (Elt Ideal))
    (x2 : (⟨S1x32000, .f32⟩ : BufTy).Contents (Elt Ideal)) :
    val_main_v4 (F := Ideal) x0 x1 x2 = Cert.Logits.affine (val_main_v0 (F := Ideal) x0) (val_main_v1 (F := Ideal) x1) x2 := by
  funext i
  have el : ∀ k : Fin 1024, lidx_main_v2 i k = ix2 (i 0) k := fun k => funext fun a => Fin.ext (by
    match a with | ⟨0, _⟩ => rfl | ⟨1, _⟩ => rfl)
  have er : ∀ k : Fin 1024, ridx_main_v2 i k = ix2 (i 1) k := fun k => funext fun a => Fin.ext (by
    match a with | ⟨0, _⟩ => rfl | ⟨1, _⟩ => rfl)
  have eb : idx_main_v3 i = ix2 (0 : Fin 1) (i 1) := funext fun a => Fin.ext (by
    match a with | ⟨0, _⟩ => rfl | ⟨1, _⟩ => rfl)
  rw [val_main_v4_apply, val_main_v2_apply, val_main_v3_apply, eb]
  simp only [el, er]
  rfl

end Cert.ReferenceIdeal.RefValue

end
-- ==== Proof.lean ====
/-
  The kernel is a tiled matrix product with a bias: for `x` of 4096 rows (a unit middle axis dropped), a table
  `w` of 32000 class rows and one bias per class it computes `x · wᵀ + b`, tile by tile over a 25 × 4 grid, the
  operands rounded to bf16 on the way into each tile's product. The reference is the same map written as one
  `einsum` plus a broadcast bias.

  Over the extended reals a change of float format is the identity and a product accumulated into zero is the
  plain sum, so each tile's entry (p, q) is `∑ₖ x[r, k] · w[c, k] + b[c]` at the result's (r, c) the tile entry
  sits at (Proof/TileAt.lean, Proof/Stored.lean); the 100 tiles cover the result (Proof/Tiles.lean); and the
  reference's contraction and broadcast read the same entries (Proof/RefLogits.lean). Both sides are one function
  of the arguments, `Cert.Logits.affine` (Proof/Logits.lean); no law of the extended reals beyond `0 + s = s` is
  used, so the precondition is never opened.

  The three frames: each kernel program's is its generated frame; the reference's is its generated run with
  the result dropped. The idealization rewrote nothing, so `preserves` is `True`.
-/
import proofs.«154329_j61117384622669_2_alg».proof.Defs
import proofs.«154329_j61117384622669_2_alg».proof.Proof.Gen.Kernel
import proofs.«154329_j61117384622669_2_alg».proof.Proof.Gen.Kernel.Skeleton
import proofs.«154329_j61117384622669_2_alg».proof.Proof.Gen.Kernel.Launch
import proofs.«154329_j61117384622669_2_alg».proof.Proof.Gen.Kernel.Points
import proofs.«154329_j61117384622669_2_alg».proof.Proof.Gen.Kernel.Frame
import proofs.«154329_j61117384622669_2_alg».proof.Proof.Gen.KernelIdeal
import proofs.«154329_j61117384622669_2_alg».proof.Proof.Gen.KernelIdeal.Skeleton
import proofs.«154329_j61117384622669_2_alg».proof.Proof.Gen.KernelIdeal.Launch
import proofs.«154329_j61117384622669_2_alg».proof.Proof.Gen.KernelIdeal.Points
import proofs.«154329_j61117384622669_2_alg».proof.Proof.Gen.KernelIdeal.Frame
import proofs.«154329_j61117384622669_2_alg».proof.Proof.Gen.ReferenceIdeal
import proofs.«154329_j61117384622669_2_alg».proof.Proof.Gen.Pre_finite_inputs
import proofs.«154329_j61117384622669_2_alg».proof.Proof.Gen.KernelIdeal.Value
import proofs.«154329_j61117384622669_2_alg».proof.Proof.Gen.ReferenceIdeal.Run
import proofs.«154329_j61117384622669_2_alg».proof.Proof.Gen.ReferenceIdeal.Read
import proofs.«154329_j61117384622669_2_alg».proof.Proof.Tiles
import proofs.«154329_j61117384622669_2_alg».proof.Proof.RefLogits
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the affine map of the flattened arguments: the kernel's by the tiling, the
    reference's by reading its stages at an index; the arguments agree, so the two results are equal. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.result_eq,
    (hagree c).1, (hagree c).2.1, (hagree c).2.2]
  rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
